-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6400000 : Shape := ⟨2, ![2, 6400000]⟩
abbrev S6400000 : Shape := ⟨1, ![6400000]⟩
abbrev S100000 : Shape := ⟨1, ![100000]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : IVec S2x6400000 32) (main_arg1 : FVec F S6400000 .f32) (main_arg2 : FVec F S100000 .f32) (main_arg3 : FVec F S100000 .f32) (main_arg4 : FVec F S100000 .f32) : IVec S_ 1 :=
  let main_v0 : FVec F S6400000 .f32 := Host.absf main_arg1
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S2x6400000 : Shape := ⟨2, ![2, 6400000]⟩
abbrev S6400000 : Shape := ⟨1, ![6400000]⟩
abbrev S100000 : Shape := ⟨1, ![100000]⟩
abbrev S1x6400000 : Shape := ⟨2, ![1, 6400000]⟩
abbrev S12800000 : Shape := ⟨1, ![12800000]⟩
abbrev S_ : Shape := ⟨0, ![]⟩
abbrev S12800000x1 : Shape := ⟨2, ![12800000, 1]⟩
abbrev S50000x128 : Shape := ⟨2, ![50000, 128]⟩
abbrev S5000x128 : Shape := ⟨2, ![5000, 128]⟩

abbrev nBuf : Space → Nat
  | .hbm => 41
  | .vmem => 8
  | .smem => 0
  | _ => 0

abbrev bufTy : (tb : Table) → Fin (tcTables nBuf tb) → BufTy
  | .hbm, ⟨0, _⟩ => ⟨S2x6400000, .i32⟩
  | .hbm, ⟨1, _⟩ => ⟨S6400000, .f32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S12800000, .i32⟩
  | .hbm, ⟨10, _⟩ => ⟨S_, .i32⟩
  | .hbm, ⟨11, _⟩ => ⟨S12800000, .i32⟩
  | .hbm, ⟨12, _⟩ => ⟨S12800000, .i1⟩
  | .hbm, ⟨13, _⟩ => ⟨S_, .i32⟩
  | .hbm, ⟨14, _⟩ => ⟨S12800000, .i32⟩
  | .hbm, ⟨15, _⟩ => ⟨S12800000, .i32⟩
  | .hbm, ⟨16, _⟩ => ⟨S12800000, .i32⟩
  | .hbm, ⟨17, _⟩ => ⟨S12800000x1, .i32⟩
  | .hbm, ⟨18, _⟩ => ⟨S12800000, .f32⟩
  | .hbm, ⟨19, _⟩ => ⟨S6400000, .f32⟩
  | .hbm, ⟨20, _⟩ => ⟨S6400000, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S6400000, .f32⟩
  | .hbm, ⟨26, _⟩ => ⟨S6400000, .f32⟩
  | .hbm, ⟨27, _⟩ => ⟨S12800000, .f32⟩
  | .hbm, ⟨28, _⟩ => ⟨S_, .i32⟩
  | .hbm, ⟨29, _⟩ => ⟨S12800000, .i32⟩
  | .hbm, ⟨30, _⟩ => ⟨S12800000, .i1⟩
  | .hbm, ⟨31, _⟩ => ⟨S_, .i32⟩
  | .hbm, ⟨32, _⟩ => ⟨S12800000, .i32⟩
  | .hbm, ⟨33, _⟩ => ⟨S12800000, .i32⟩
  | .hbm, ⟨34, _⟩ => ⟨S12800000, .i32⟩
  | .hbm, ⟨35, _⟩ => ⟨S12800000x1, .i32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S6400000_S12800000_d0 : Shape.Concatenates [S6400000, S6400000] S12800000 0
  bcast_S_S12800000 : S_.BroadcastsInDim S12800000 (![] : Fin 0 → Fin S12800000.rank)
  bcast_S12800000_S12800000x1_0 : S12800000.BroadcastsInDim S12800000x1 (![0] : Fin 1 → Fin S12800000x1.rank)
  slices_S12800000_S6400000_0 : S12800000.Slices ![0] S6400000
  slices_S12800000_S6400000_6400000 : S12800000.Slices ![6400000] S6400000
  shapeCasts_S6400000_S50000x128 : S6400000.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S6400000 : S50000x128.ShapeCasts S6400000
  reducesTo_S100000_S_d0 : S100000.ReducesTo [0] S_
  h_S_ : 0 < S_.numel
  gather_S100000_S12800000x1_S12800000_n_0_n_n_0_1_1_wf : GatherDims.WF S100000 S12800000x1 S12800000 [] [0] [] [0] [] 1 ![1]
  scatter_S100000_S12800000x1_S12800000_n_0_0_1_wf : ScatterDims.WF S100000 S12800000x1 S12800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S100000_S12800000x1_S12800000_n_0_n_n_0_1_1 : GatherDims S100000 S12800000x1 S12800000 where
  offsetDims := []
  collapsedSliceDims := [0]
  operandBatchingDims := []
  startIndicesBatchingDims := []
  startIndexMap := [0]
  indexVectorDim := 1
  sliceSizes := ![1]
  wf := gather_S100000_S12800000x1_S12800000_n_0_n_n_0_1_1_wf
def scatter_S100000_S12800000x1_S12800000_n_0_0_1 : ScatterDims S100000 S12800000x1 S12800000 where
  updateWindowDims := []
  insertedWindowDims := [0]
  scatterDimsToOperandDims := [0]
  indexVectorDim := 1
  wf := scatter_S100000_S12800000x1_S12800000_n_0_0_1_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x6400000 : Shape := ⟨2, ![2, 6400000]⟩
abbrev S6400000 : Shape := ⟨1, ![6400000]⟩
abbrev S100000 : Shape := ⟨1, ![100000]⟩
abbrev S1x6400000 : Shape := ⟨2, ![1, 6400000]⟩
abbrev S_ : Shape := ⟨0, ![]⟩
abbrev S6400000x1 : Shape := ⟨2, ![6400000, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x6400000, .i32⟩
  | .hbm, ⟨1, _⟩ => ⟨S6400000, .f32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000, .f32⟩
  | .hbm, ⟨18, _⟩ => ⟨S_, .i32⟩
  | .hbm, ⟨19, _⟩ => ⟨S6400000, .i32⟩
  | .hbm, ⟨20, _⟩ => ⟨S6400000, .i1⟩
  | .hbm, ⟨21, _⟩ => ⟨S_, .i32⟩
  | .hbm, ⟨22, _⟩ => ⟨S6400000, .i32⟩
  | .hbm, ⟨23, _⟩ => ⟨S6400000, .i32⟩
  | .hbm, ⟨24, _⟩ => ⟨S6400000, .i32⟩
  | .hbm, ⟨25, _⟩ => ⟨S6400000x1, .i32⟩
  | .hbm, ⟨26, _⟩ => ⟨S6400000, .f32⟩
  | .hbm, ⟨27, _⟩ => ⟨S6400000, .f32⟩
  | .hbm, ⟨28, _⟩ => ⟨S6400000, .f32⟩
  | .hbm, ⟨29, _⟩ => ⟨S_, .f32⟩
  | .hbm, ⟨30, _⟩ => ⟨S6400000, .f32⟩
  | .hbm, ⟨31, _⟩ => ⟨S6400000, .f32⟩
  | .hbm, ⟨32, _⟩ => ⟨S6400000, .f32⟩
  | .hbm, ⟨33, _⟩ => ⟨S6400000, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S100000, .f32⟩
  | .hbm, ⟨43, _⟩ => ⟨S_, .i32⟩
  | .hbm, ⟨44, _⟩ => ⟨S6400000, .i32⟩
  | .hbm, ⟨45, _⟩ => ⟨S6400000, .i1⟩
  | .hbm, ⟨46, _⟩ => ⟨S_, .i32⟩
  | .hbm, ⟨47, _⟩ => ⟨S6400000, .i32⟩
  | .hbm, ⟨48, _⟩ => ⟨S6400000, .i32⟩
  | .hbm, ⟨49, _⟩ => ⟨S6400000, .i32⟩
  | .hbm, ⟨50, _⟩ => ⟨S6400000x1, .i32⟩
  | .hbm, ⟨51, _⟩ => ⟨S100000, .f32⟩
  | .hbm, ⟨52, _⟩ => ⟨S100000, .f32⟩
  | .hbm, ⟨53, _⟩ => ⟨S100000, .f32⟩
  | .hbm, ⟨54, _⟩ => ⟨S_, .f32⟩
  | .hbm, ⟨55, _⟩ => ⟨S_, .f32⟩
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S100000_S_d0 : S100000.ReducesTo [0] S_
  h_S_ : 0 < S_.numel
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.TransferArray.lean ====
/-
  The region of the kernel, read as one function of whole arrays.

  The three input arrays and the output array all have 50000 rows of 128 lanes and are cut into ten blocks of
  5000 rows; grid point `t` handles block `t` of each. On a block the body computes, element by element,
  `|a − b| · c₀ · w` with `c₀` the float literal written in the source (the same word on both sides of the
  claim, so it is never evaluated). Since every window uses the same block index, the element of the output at
  row `r`, lane `l` depends only on the elements of the inputs at `(r, l)`; the ten blocks tile the array, so
  after the region the output array is that pointwise expression of the three input arrays everywhere.
-/
import proofs.«129985_j85117661872492_2_alg».proof.Proof.Gen.KernelIdeal.Frame
import Idealize.ShloMosaic.Lib.Pipeline.Value

noncomputable section

namespace Cert.KernelIdeal.TransferArray

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem offsets_zero : (![0, 0] : Fin 2 → Nat) = fun _ => 0 := funext fun a => by fin_cases a <;> rfl

/-- The per-edge transfer laid out on the 50000 × 128 grid: `|a − b| · c₀ · w`, element by element. -/
abbrev transfer2d (a b w : S50000x128.Idx → Elt F .f32) : S50000x128.Idx → Elt F .f32 :=
  fun i => FloatOps.mulf (FloatOps.mulf (FloatOps.absf (FloatOps.subf (a i) (b i))) (Scalar.ofBits .f32 0x3DCCCCCD#32)) (w i)

/-- On a block the body's stored value is that expression of the three loaded blocks (the body's shape casts
    are between equal shapes). -/
theorem payload_eq (x0 x1 x2 : Vec F S5000x128 .f32) :
    k0_pay1 x0 x1 x2 = fun i => FloatOps.mulf (FloatOps.mulf (FloatOps.absf (FloatOps.subf (x0 i) (x1 i))) (Scalar.ofBits .f32 0x3DCCCCCD#32)) (x2 i) := by
  unfold k0_pay1
  simp only [shapeCast_self]
  rfl

/-- Every window's block index at a point is `(t, 0)`: the inputs move with the output, and the row-block
    index stays below ten. -/
theorem index_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 9 ∧ win0_3.index t (1 : Fin 2) = 0 :=
  (by decide +kernel : ∀ t : Fin grid0.N, _)

/-- Every row block is some point's. -/
theorem index_onto : ∀ q : Fin 10, ∃ t : Fin cfg0.N, win0_3.index t = ![q.val, 0] :=
  (by decide +kernel : ∀ q : Fin 10, ∃ t : Fin grid0.N, win0_3.index t = ![q.val, 0])

/-- What point `t` writes back is block `t` of the pointwise expression of the three input arrays. -/
theorem flushed_eq (c : Dev nD) (t : Fin cfg0.N) :
    (dats m 0 c).flushed 3 t
      = ((cfg0.win 3).blk t).view.read (Elt F) (transfer2d (V m c main_v14) (V m c main_v15) (V m c main_v16)) := by
  show (cfg0.win 3).cut (grid0.coords t) ((dats m 0 c).after 3 t) = _
  rw [after0_3]
  unfold out0_3
  rw [View.canon_unit_zero offsets_zero]
  simp only [View.ld_unit_zero (S := S5000x128) offsets_zero]
  rw [payload_eq]
  obtain ⟨e0, e1, e2, e3, e4, e5, e6, e7⟩ := index_facts t
  funext j
  show FloatOps.mulf (FloatOps.mulf (FloatOps.absf (FloatOps.subf (V m c main_v14 (((cfg0.win 0).blk t).view.emb j)) (V m c main_v15 (((cfg0.win 1).blk t).view.emb j)))) (Scalar.ofBits .f32 0x3DCCCCCD#32)) (V m c main_v16 (((cfg0.win 2).blk t).view.emb j))
    = FloatOps.mulf (FloatOps.mulf (FloatOps.absf (FloatOps.subf (V m c main_v14 (((cfg0.win 3).blk t).view.emb j)) (V m c main_v15 (((cfg0.win 3).blk t).view.emb j)))) (Scalar.ofBits .f32 0x3DCCCCCD#32)) (V m c main_v16 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega
  rw [h0, h1, h2]

/-- An index of the output array is in point `t`'s block iff each coordinate is in the block's range. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- The ten blocks tile the array: row `r` is in block `r / 5000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the output array is the pointwise expression of the three input arrays as the region
    found them. -/
theorem final (c : Dev nD) :
    (dats m 0 c).arrAt 3 cfg0.N = transfer2d (V m c main_v14) (V m c main_v15) (V m c main_v16) :=
  (dats m 0 c).arrAt_eq_of_cover 3 _ (fun t _ => flushed_eq m c t) covered

end Cert.KernelIdeal.TransferArray

end
-- ==== Proof.KernelValue.lean ====
/-
  What the kernel's program computes, as functions of its argument arrays.

  Before the region the program lays the two endpoint lists of the edges end to end (sources first, then
  destinations), wraps negative endpoints round by the number of nodes, reads the traffic of all endpoints
  with ONE gather, and cuts the result back into its two halves, each reshaped to 50000 × 128. The region
  turns the two halves and the edge weights into the per-edge transfer. After the region the program lays
  the negated transfers and the transfers end to end, adds them into the traffic with ONE accumulating
  scatter at the same wrapped endpoints, and sums `yield · new_traffic − cost` over the nodes.

  This file names those terms and re-posts the generated frame run with the two results at them.
-/
import proofs.«129985_j85117661872492_2_alg».proof.Proof.TransferArray
import Idealize.ShloMosaic.Lib.StableHlo.Run

noncomputable section

namespace Cert.KernelIdeal.Flow

open Cert.KernelIdeal Cert.KernelIdeal.Gen Cert.KernelIdeal.TransferArray
open Idealize.ShloMosaic Idealize.ShloMosaic.TcCoe Idealize.SL.Sem Idealize.ShloMosaic.StableHlo
open Idealize.ShloMosaic.Pipeline (Dat)

variable {F : FTy → Type} [FloatOps F]

/-! ## The terms -/

/-- The edges' sources: row 0 of the endpoint table. -/
abbrev sources (a0 : (⟨S2x6400000, .i32⟩ : BufTy).Contents (Elt F)) : (⟨S6400000, .i32⟩ : BufTy).Contents (Elt F) :=
  shapeCast S6400000 (extractStridedSlice S1x6400000 ![0, 0] a0 slices_S2x6400000_S1x6400000_0_0) shapeCasts_S1x6400000_S6400000

/-- The edges' destinations: row 1 of the endpoint table. -/
abbrev dests (a0 : (⟨S2x6400000, .i32⟩ : BufTy).Contents (Elt F)) : (⟨S6400000, .i32⟩ : BufTy).Contents (Elt F) :=
  shapeCast S6400000 (extractStridedSlice S1x6400000 ![1, 0] a0 slices_S2x6400000_S1x6400000_1_0) shapeCasts_S1x6400000_S6400000

/-- Sources, then destinations, end to end. -/
abbrev endpoints (a0 : (⟨S2x6400000, .i32⟩ : BufTy).Contents (Elt F)) : (⟨S12800000, .i32⟩ : BufTy).Contents (Elt F) :=
  concatenate S12800000 0 [⟨S6400000, sources a0⟩, ⟨S6400000, dests a0⟩] concatenates_S6400000_S6400000_S12800000_d0

/-- A negative endpoint counts from the end: the number of nodes is added to it. Then the list as a column. -/
abbrev wrappedColumn (e : (⟨S12800000, .i32⟩ : BufTy).Contents (Elt F)) : (⟨S12800000x1, .i32⟩ : BufTy).Contents (Elt F) :=
  broadcastInDim S12800000x1 ![0] bcast_S12800000_S12800000x1_0
    (select (cmpi CmpIPredicate.slt e (broadcastInDim S12800000 ![] bcast_S_S12800000 (constantI S_ 32 0#32)))
      (addi e (broadcastInDim S12800000 ![] bcast_S_S12800000 (constantI S_ 32 100000#32))) e)

/-- The traffic at every endpoint, sources' first. -/
abbrev gathered (x : (⟨S100000, .f32⟩ : BufTy).Contents (Elt F)) (e : (⟨S12800000, .i32⟩ : BufTy).Contents (Elt F)) :
    (⟨S12800000, .f32⟩ : BufTy).Contents (Elt F) :=
  Host.gather gather_S100000_S12800000x1_S12800000_n_0_n_n_0_1_1 x (wrappedColumn e)

/-- The traffic at the sources, on the 50000 × 128 grid. -/
abbrev srcTraffic2d (x : (⟨S100000, .f32⟩ : BufTy).Contents (Elt F)) (e : (⟨S12800000, .i32⟩ : BufTy).Contents (Elt F)) :
    (⟨S50000x128, .f32⟩ : BufTy).Contents (Elt F) :=
  shapeCast S50000x128 (extractStridedSlice S6400000 ![0] (gathered x e) slices_S12800000_S6400000_0) shapeCasts_S6400000_S50000x128

/-- The traffic at the destinations, on the 50000 × 128 grid. -/
abbrev dstTraffic2d (x : (⟨S100000, .f32⟩ : BufTy).Contents (Elt F)) (e : (⟨S12800000, .i32⟩ : BufTy).Contents (Elt F)) :
    (⟨S50000x128, .f32⟩ : BufTy).Contents (Elt F) :=
  shapeCast S50000x128 (extractStridedSlice S6400000 ![6400000] (gathered x e) slices_S12800000_S6400000_6400000) shapeCasts_S6400000_S50000x128

/-- The edge weights on the 50000 × 128 grid. -/
abbrev weights2d (w : (⟨S6400000, .f32⟩ : BufTy).Contents (Elt F)) : (⟨S50000x128, .f32⟩ : BufTy).Contents (Elt F) :=
  shapeCast S50000x128 w shapeCasts_S6400000_S50000x128

/-- The new traffic from the traffic `x`, the endpoint list `e` and the per-edge transfer `t2` on the grid:
    `−t` is added at every source and `t` at every destination, by one scatter over both lists. -/
def newOf (x : (⟨S100000, .f32⟩ : BufTy).Contents (Elt F)) (e : (⟨S12800000, .i32⟩ : BufTy).Contents (Elt F))
    (t2 : (⟨S50000x128, .f32⟩ : BufTy).Contents (Elt F)) : (⟨S100000, .f32⟩ : BufTy).Contents (Elt F) :=
  Host.scatterAdd scatter_S100000_S12800000x1_S12800000_n_0_0_1 x (wrappedColumn e)
    (concatenate S12800000 0
      [⟨S6400000, Host.negf (shapeCast S6400000 t2 shapeCasts_S50000x128_S6400000)⟩,
       ⟨S6400000, shapeCast S6400000 t2 shapeCasts_S50000x128_S6400000⟩]
      concatenates_S6400000_S6400000_S12800000_d0)

/-- The total service efficiency: the sum over the nodes of `yield · traffic − cost`. -/
def totalOf (y n k : (⟨S100000, .f32⟩ : BufTy).Contents (Elt F)) : (⟨S_, .f32⟩ : BufTy).Contents (Elt F) :=
  Host.reduceAdd (subf (mulf y n) k) (constant S_ .f32 0x00000000#32) reducesTo_S100000_S_d0 h_S_

/-- The kernel's new traffic as a function of the endpoint table, the edge weights and the traffic. -/
def newTraffic (a0 : (⟨S2x6400000, .i32⟩ : BufTy).Contents (Elt F)) (w : (⟨S6400000, .f32⟩ : BufTy).Contents (Elt F))
    (x : (⟨S100000, .f32⟩ : BufTy).Contents (Elt F)) : (⟨S100000, .f32⟩ : BufTy).Contents (Elt F) :=
  newOf x (endpoints a0)
    (transfer2d (srcTraffic2d x (endpoints a0)) (dstTraffic2d x (endpoints a0)) (weights2d w))

variable (m : (ℓ : Loc nD τ sig) → Buf (Elt F) ℓ) (ρ : Dev nD → PrngReg)

/-! ## The host lines before the region -/

theorem entry_endpoints (c : Dev nD) : V m c main_v4 = endpoints (m ((c : Thread nD τ).loc main_arg0)) := by
  show StableHlo.after hostOps0 (fun b => m (c, b)) (Proc.devRef .tc main_v4) = _
  after_results
  rfl

theorem entry_src (c : Dev nD) :
    V m c main_v14 = srcTraffic2d (m ((c : Thread nD τ).loc main_arg3)) (endpoints (m ((c : Thread nD τ).loc main_arg0))) := by
  show StableHlo.after hostOps0 (fun b => m (c, b)) (Proc.devRef .tc main_v14) = _
  after_results
  rfl

theorem entry_dst (c : Dev nD) :
    V m c main_v15 = dstTraffic2d (m ((c : Thread nD τ).loc main_arg3)) (endpoints (m ((c : Thread nD τ).loc main_arg0))) := by
  show StableHlo.after hostOps0 (fun b => m (c, b)) (Proc.devRef .tc main_v15) = _
  after_results
  rfl

theorem entry_weights (c : Dev nD) : V m c main_v16 = weights2d (m ((c : Thread nD τ).loc main_arg1)) := by
  show StableHlo.after hostOps0 (fun b => m (c, b)) (Proc.devRef .tc main_v16) = _
  after_results
  rfl

/-! ## The host lines after the region -/

theorem tail_new (W : Valuation τ sig (Elt F)) :
    StableHlo.after hostOps1 W (Proc.devRef .tc main_v27)
      = newOf (W (Proc.devRef .tc main_arg3)) (W (Proc.devRef .tc main_v4)) (W (Proc.devRef .tc main_v17)) := by
  after_results
  rfl

set_option maxHeartbeats 2000000 in
theorem tail_total (W : Valuation τ sig (Elt F)) :
    StableHlo.after hostOps1 W (Proc.devRef .tc main_v30)
      = totalOf (W (Proc.devRef .tc main_arg2))
          (newOf (W (Proc.devRef .tc main_arg3)) (W (Proc.devRef .tc main_v4)) (W (Proc.devRef .tc main_v17)))
          (W (Proc.devRef .tc main_arg4)) := by
  after_results_simp <;> rfl

/-- The buffers as the region leaves them: its arrays at what the grid points wrote, the rest as it found them. -/
abbrev exitVal (c : Dev nD) : Valuation τ sig (Elt F) :=
  Pipeline.withArrays (cfgs 0).spec c (V0 m c) (fun w => (dats m 0 c).arrAt w (cfgs 0).N)

theorem exit_transfer (c : Dev nD) :
    exitVal m c (Proc.devRef .tc main_v17) = transfer2d (V m c main_v14) (V m c main_v15) (V m c main_v16) :=
  (Pipeline.withArrays_arr spec0 launch0.win.arr_inj c _ _ 3).trans (final m c)

theorem exit_endpoints (c : Dev nD) : exitVal m c (Proc.devRef .tc main_v4) = V m c main_v4 :=
  Pipeline.withArrays_of_ne _ c (V0 m c) _ main_v4 (by exact (by decide : ∀ w, Pipeline.arrRef spec0 w ≠ main_v4))

theorem exit_arg2 (c : Dev nD) : exitVal m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

theorem exit_arg3 (c : Dev nD) : exitVal m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem exit_arg4 (c : Dev nD) : exitVal m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

/-- The first result: the new traffic. -/
theorem result_new (c : Dev nD) :
    Pipeline.afterTail₀ cfgs (dats m) 0 (V0 m) [hostOps1] c main_v27
      = newTraffic (m ((c : Thread nD τ).loc main_arg0)) (m ((c : Thread nD τ).loc main_arg1)) (m ((c : Thread nD τ).loc main_arg3)) := by
  unfold Pipeline.afterTail₀
  refine (tail_new (exitVal m c)).trans ?_
  rw [exit_transfer, exit_endpoints, exit_arg3, entry_endpoints, entry_src, entry_dst, entry_weights]
  rfl

/-- The second result: the total service efficiency of the new traffic. -/
theorem result_total (c : Dev nD) :
    Pipeline.afterTail₀ cfgs (dats m) 0 (V0 m) [hostOps1] c main_v30
      = totalOf (m ((c : Thread nD τ).loc main_arg2))
          (newTraffic (m ((c : Thread nD τ).loc main_arg0)) (m ((c : Thread nD τ).loc main_arg1)) (m ((c : Thread nD τ).loc main_arg3)))
          (m ((c : Thread nD τ).loc main_arg4)) := by
  unfold Pipeline.afterTail₀
  refine (tail_total (exitVal m c)).trans ?_
  rw [exit_transfer, exit_endpoints, exit_arg2, exit_arg3, exit_arg4, entry_endpoints, entry_src, entry_dst, entry_weights]
  rfl

/-! ## The run, read -/

/-- Every weakly fair execution of the kernel's program terminates with its two results at the terms above and
    its arguments unchanged. -/
theorem run : θ_run defs (onTc (τ := τ) (main (F := F))) ⟨m, fun _ => 0, ρ⟩ fun r => ∀ c : Dev nD,
      r.2.mem ((c.tc : Thread nD τ).loc main_v27)
        = newTraffic (m ((c : Thread nD τ).loc main_arg0)) (m ((c : Thread nD τ).loc main_arg1)) (m ((c : Thread nD τ).loc main_arg3))
      ∧ r.2.mem ((c.tc : Thread nD τ).loc main_v30)
        = totalOf (m ((c : Thread nD τ).loc main_arg2))
            (newTraffic (m ((c : Thread nD τ).loc main_arg0)) (m ((c : Thread nD τ).loc main_arg1)) (m ((c : Thread nD τ).loc main_arg3)))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v27 (Pipeline.mem_restRefs_of main_v27 (by decide) (by decide))).trans (result_new m c),
     ((h c).2 main_v30 (Pipeline.mem_restRefs_of main_v30 (by decide) (by decide))).trans (result_total m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Flow

end
-- ==== Proof.ReferenceValue.lean ====
/-
  What the reference computes, as functions of its argument arrays.

  The reference wraps negative endpoints round by the number of nodes, reads the traffic at the sources and
  at the destinations with two gathers, forms the per-edge transfer `|src − dst| · c₀ · weight` (with `c₀`
  the float literal written in the source), subtracts it at every source with one accumulating scatter and
  adds it at every destination with a second one, and sums `yield · new_traffic − cost` over the nodes.

  This file names those terms; the generated run's two result terms are these, by unfolding.
-/
import proofs.«129985_j85117661872492_2_alg».proof.Proof.Gen.ReferenceIdeal.Run

noncomputable section

namespace Cert.ReferenceIdeal.Flow

open Cert.ReferenceIdeal Cert.ReferenceIdeal.Gen Idealize.ShloMosaic Idealize.ShloMosaic.TcCoe Idealize.SL.Sem

variable {F : FTy → Type} [FloatOps F]

/-- The edges' sources: row 0 of the endpoint table. -/
abbrev sources (a0 : (⟨S2x6400000, .i32⟩ : BufTy).Contents (Elt F)) : (⟨S6400000, .i32⟩ : BufTy).Contents (Elt F) :=
  shapeCast S6400000 (extractStridedSlice S1x6400000 ![0, 0] a0 slices_S2x6400000_S1x6400000_0_0) shapeCasts_S1x6400000_S6400000

/-- The edges' destinations: row 1 of the endpoint table. -/
abbrev dests (a0 : (⟨S2x6400000, .i32⟩ : BufTy).Contents (Elt F)) : (⟨S6400000, .i32⟩ : BufTy).Contents (Elt F) :=
  shapeCast S6400000 (extractStridedSlice S1x6400000 ![1, 0] a0 slices_S2x6400000_S1x6400000_1_0) shapeCasts_S1x6400000_S6400000

/-- A negative endpoint counts from the end: the number of nodes is added to it. Then the list as a column. -/
abbrev wrappedColumn (e : (⟨S6400000, .i32⟩ : BufTy).Contents (Elt F)) : (⟨S6400000x1, .i32⟩ : BufTy).Contents (Elt F) :=
  broadcastInDim S6400000x1 ![0] bcast_S6400000_S6400000x1_0
    (select (cmpi CmpIPredicate.slt e (broadcastInDim S6400000 ![] bcast_S_S6400000 (constantI S_ 32 0#32)))
      (addi e (broadcastInDim S6400000 ![] bcast_S_S6400000 (constantI S_ 32 100000#32))) e)

/-- The traffic at a list of endpoints. -/
abbrev trafficAt (x : (⟨S100000, .f32⟩ : BufTy).Contents (Elt F)) (e : (⟨S6400000, .i32⟩ : BufTy).Contents (Elt F)) :
    (⟨S6400000, .f32⟩ : BufTy).Contents (Elt F) :=
  Host.gather gather_S100000_S6400000x1_S6400000_n_0_n_n_0_1_1 x (wrappedColumn e)

/-- The per-edge transfer: `|traffic(src) − traffic(dst)| · c₀ · weight`. -/
def transfer (a0 : (⟨S2x6400000, .i32⟩ : BufTy).Contents (Elt F)) (w : (⟨S6400000, .f32⟩ : BufTy).Contents (Elt F))
    (x : (⟨S100000, .f32⟩ : BufTy).Contents (Elt F)) : (⟨S6400000, .f32⟩ : BufTy).Contents (Elt F) :=
  mulf (mulf (Host.absf (subf (trafficAt x (sources a0)) (trafficAt x (dests a0))))
    (broadcastInDim S6400000 ![] bcast_S_S6400000 (constant S_ .f32 0x3DCCCCCD#32))) w

/-- The new traffic: the transfer subtracted at every source, then added at every destination. -/
def newTraffic (a0 : (⟨S2x6400000, .i32⟩ : BufTy).Contents (Elt F)) (w : (⟨S6400000, .f32⟩ : BufTy).Contents (Elt F))
    (x : (⟨S100000, .f32⟩ : BufTy).Contents (Elt F)) : (⟨S100000, .f32⟩ : BufTy).Contents (Elt F) :=
  Host.scatterAdd scatter_S100000_S6400000x1_S6400000_n_0_0_1
    (Host.scatterAdd scatter_S100000_S6400000x1_S6400000_n_0_0_1 x (wrappedColumn (sources a0)) (Host.negf (transfer a0 w x)))
    (wrappedColumn (dests a0)) (transfer a0 w x)

/-- The total service efficiency: the sum over the nodes of `yield · traffic − cost`. -/
def totalOf (y n k : (⟨S100000, .f32⟩ : BufTy).Contents (Elt F)) : (⟨S_, .f32⟩ : BufTy).Contents (Elt F) :=
  Host.reduceAdd (subf (mulf y n) k) (constant S_ .f32 0x00000000#32) reducesTo_S100000_S_d0 h_S_

variable (m : (ℓ : Loc nD τ sig) → Buf (Elt F) ℓ)

set_option maxRecDepth 8192 in
/-- The run's first result term is the new traffic. -/
theorem res_new (c : Dev nD) :
    Cert.ReferenceIdeal.Value.res_main_v37 m c
      = newTraffic (m ((c.tc : Thread nD τ).loc main_arg0)) (m ((c.tc : Thread nD τ).loc main_arg1)) (m ((c.tc : Thread nD τ).loc main_arg3)) := by
  unfold Cert.ReferenceIdeal.Value.res_main_v37 newTraffic transfer
  rfl

set_option maxRecDepth 8192 in
/-- The run's second result term is the total of the new traffic. -/
theorem res_total (c : Dev nD) :
    Cert.ReferenceIdeal.Value.res_main_v40 m c
      = totalOf (m ((c.tc : Thread nD τ).loc main_arg2))
          (newTraffic (m ((c.tc : Thread nD τ).loc main_arg0)) (m ((c.tc : Thread nD τ).loc main_arg1)) (m ((c.tc : Thread nD τ).loc main_arg3)))
          (m ((c.tc : Thread nD τ).loc main_arg4)) := by
  unfold Cert.ReferenceIdeal.Value.res_main_v40 totalOf newTraffic transfer
  rfl

end Cert.ReferenceIdeal.Flow

end
-- ==== Proof.LibFlatScatter.lean ====
/-
  A flat table `x : [N]` addressed through a column of integer indices `idx : [M, 1]`.

  * The gather `x[idx]` read at position `y` is the table at the index word of row `y`, read as a signed
    integer and clamped into `[0, N − 1]`.
  * For the accumulating scatter `x.at[idx].add(u)` the update at position `j` lands on the node named by the
    index word of row `j` read as a signed integer, and is dropped when that integer is outside `[0, N)`.
  * On the extended reals the accumulating scatter is "each entry plus the sum of the updates landing on it".
    Addition there is associative and commutative, so when the list of updates is the disjoint union of two
    lists (through any bijection of the position sets that respects where each update lands and what it
    carries), one scatter of the whole list equals the scatter of the first list followed by the scatter of
    the second. No finiteness is needed: only the order and grouping of a finite sum change.
-/
import Idealize.ShloMosaic.PureOps.Ideal
import Idealize.ShloMosaic.Lib.ValueIdx

noncomputable section

open scoped BigOperators

namespace Idealize.ShloMosaic.FlatScatter

open Idealize.ShloMosaic Idealize.ShloMosaic.ValueIdx

/-! ## The index column -/

/-- Row `a` of an index column `[M, 1]`. -/
abbrev colIdx {M : Nat} (a : Fin M) : (⟨2, ![M, 1]⟩ : Shape).Idx := ix2 a (0 : Fin 1)

/-! ## The gather -/

/-- The dimension numbers of `x[idx]` for a table `[N]`, an index column `[M, 1]` and a result `[M]`. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather at position `y`: the table at row `y`'s index word, signed, clamped into `[0, N − 1]`. -/
theorem flatGather_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : Fin M) :
    Host.gather (flatGather N M wf) x idx (ix1 y)
      = x (ix1 ⟨min (idx (colIdx y)).toInt.toNat (N - 1), by omega⟩) := by
  unfold Host.gather
  congr 1
  funext a
  obtain rfl : a = 0 := Subsingleton.elim _ _
  refine Fin.ext ?_
  show (flatGather N M wf).start (ix1 y) idx 0 + (flatGather N M wf).batchCoord (ix1 y) 0
      + (flatGather N M wf).offCoord (ix1 y) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx (ix1 y) ⟨List.idxOf (0 : Fin 1) (flatGather N M wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

/-! ## Where an update lands -/

/-- The dimension numbers of `x.at[idx].add(u)` for a table `[N]`, an index column `[M, 1]`, updates `[M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The node a signed index names: itself when it is inside `[0, N)`, none otherwise. -/
def land (N : Nat) (v : Int) : Option (⟨1, ![N]⟩ : Shape).Idx :=
  if h : 0 ≤ v ∧ v < (N : Int) then some (ix1 ⟨v.toNat, by omega⟩) else none

/-- The update at position `j` lands where row `j`'s index word, read signed, points. -/
theorem flatScatter_resultIdx? {N M w : Nat}
    (wf : ScatterDims.WF ⟨1, ![N]⟩ ⟨2, ![M, 1]⟩ ⟨1, ![M]⟩ [] [0] [0] 1)
    (idx : IVec ⟨2, ![M, 1]⟩ w) (j : Fin M) :
    (flatScatter N M wf).resultIdx? (ix1 j) idx = land N (idx (colIdx j)).toInt := by
  have hsi : (flatScatter N M wf).siIdx (ix1 j) ⟨List.idxOf (0 : Fin 1) (flatScatter N M wf).scatterDimsToOperandDims,
      List.idxOf_lt_length_iff.2 (List.mem_singleton.mpr rfl)⟩ = colIdx j := by
    funext b; refine Fin.ext ?_
    match b with
    | ⟨0, _⟩ => rfl
    | ⟨1, _⟩ => rfl
  have hstart : (flatScatter N M wf).start (ix1 j) idx 0 = (idx (colIdx j)).toInt := by
    unfold ScatterDims.start
    rw [dif_pos (show (0 : Fin 1) ∈ (flatScatter N M wf).scatterDimsToOperandDims from List.mem_singleton.mpr rfl), hsi]
  have hwin : (flatScatter N M wf).window (ix1 j) 0 = 0 := by
    unfold ScatterDims.window
    rw [dif_neg]
    intro h
    simp [ScatterDims.sKept, Shape.kept, List.mem_filter] at h
  have hsum : ∀ a : Fin 1, (flatScatter N M wf).start (ix1 j) idx a + ((flatScatter N M wf).window (ix1 j) a : Int)
      = (idx (colIdx j)).toInt := by
    intro a
    obtain rfl : a = 0 := Subsingleton.elim _ _
    rw [hstart, hwin]; simp
  unfold ScatterDims.resultIdx? land
  by_cases h : 0 ≤ (idx (colIdx j)).toInt ∧ (idx (colIdx j)).toInt < (N : Int)
  · rw [dif_pos h, dif_pos (fun a => by
      rw [hsum a]
      obtain rfl : a = 0 := Subsingleton.elim _ _
      exact h)]
    congr 1
    funext a
    obtain rfl : a = 0 := Subsingleton.elim _ _
    refine Fin.ext ?_
    show ((flatScatter N M wf).start (ix1 j) idx 0 + ((flatScatter N M wf).window (ix1 j) 0 : Int)).toNat = _
    rw [hsum 0]
    rfl
  · rw [dif_neg h, dif_neg (fun H => h (by
      have := H 0
      rw [hsum 0] at this
      exact this))]

/-! ## One scatter of two lists of updates -/

/-- On the extended reals, an accumulating scatter whose updates are the disjoint union of two lists — a
    bijection `e` from the two position sets onto the whole one, under which every update keeps its landing
    node and its value — is the scatter of the first list followed by the scatter of the second:
    `x i + ∑ (both lists) = (x i + ∑ (first)) + ∑ (second)`. -/
theorem hostScatterAdd_union {s si₁ u₁ si₂ u₂ si u : Shape} {w : Nat}
    (d₁ : ScatterDims s si₁ u₁) (d₂ : ScatterDims s si₂ u₂) (d : ScatterDims s si u)
    (x : s.Idx → EReal)
    (idx₁ : IVec si₁ w) (upd₁ : u₁.Idx → EReal)
    (idx₂ : IVec si₂ w) (upd₂ : u₂.Idx → EReal)
    (idx : IVec si w) (upd : u.Idx → EReal)
    (e : u₁.Idx ⊕ u₂.Idx ≃ u.Idx)
    (hl : ∀ j, d.resultIdx? (e (Sum.inl j)) idx = d₁.resultIdx? j idx₁)
    (hr : ∀ j, d.resultIdx? (e (Sum.inr j)) idx = d₂.resultIdx? j idx₂)
    (ul : ∀ j, upd (e (Sum.inl j)) = upd₁ j)
    (ur : ∀ j, upd (e (Sum.inr j)) = upd₂ j) :
    Ideal.hostScatterAdd d x idx upd
      = Ideal.hostScatterAdd d₂ (Ideal.hostScatterAdd d₁ x idx₁ upd₁) idx₂ upd₂ := by
  funext i
  unfold Ideal.hostScatterAdd
  rw [add_assoc]
  congr 1
  rw [Finset.sum_filter, Finset.sum_filter, Finset.sum_filter, ← e.sum_comp, Fintype.sum_sum_type]
  simp only [hl, hr, ul, ur]

/-! ## The positions of a concatenation -/

/-- The positions of two lists of lengths `n₁` and `n₂` laid end to end, sent into the positions of a list of
    length `n` = `n₁ + n₂`: the first list keeps its positions, the second is shifted by `n₁`. -/
def concatFwd (n₁ n₂ n : Nat) (hn : n = n₁ + n₂) :
    (⟨1, ![n₁]⟩ : Shape).Idx ⊕ (⟨1, ![n₂]⟩ : Shape).Idx → (⟨1, ![n]⟩ : Shape).Idx
  | Sum.inl j => ix1 ⟨(j 0).val, by have h : (j 0).val < n₁ := (j 0).isLt; omega⟩
  | Sum.inr j => ix1 ⟨(j 0).val + n₁, by have h : (j 0).val < n₂ := (j 0).isLt; omega⟩

/-- Back: a position below `n₁` is the first list's, any other the second list's at `n₁` less. -/
def concatBwd (n₁ n₂ n : Nat) (hn : n = n₁ + n₂) (p : (⟨1, ![n]⟩ : Shape).Idx) :
    (⟨1, ![n₁]⟩ : Shape).Idx ⊕ (⟨1, ![n₂]⟩ : Shape).Idx :=
  if h : (p 0).val < n₁ then Sum.inl (ix1 ⟨(p 0).val, h⟩)
  else Sum.inr (ix1 ⟨(p 0).val - n₁, by have hp : (p 0).val < n := (p 0).isLt; omega⟩)

theorem concatBwd_fwd (n₁ n₂ n : Nat) (hn : n = n₁ + n₂) (q : (⟨1, ![n₁]⟩ : Shape).Idx ⊕ (⟨1, ![n₂]⟩ : Shape).Idx) :
    concatBwd n₁ n₂ n hn (concatFwd n₁ n₂ n hn q) = q := by
  rcases q with j | j
  · have hj : (j 0).val < n₁ := (j 0).isLt
    unfold concatBwd
    split
    · refine congrArg Sum.inl ?_
      funext a; match a with | ⟨0, _⟩ => rfl
    · rename_i h; exact absurd hj h
  · have hj : ¬ ((j 0).val + n₁ < n₁) := by omega
    unfold concatBwd
    split
    · rename_i h; exact absurd h hj
    · refine congrArg Sum.inr ?_
      funext a; match a with | ⟨0, _⟩ => exact Fin.ext (by show (j 0).val + n₁ - n₁ = (j 0).val; omega)

theorem concatFwd_bwd (n₁ n₂ n : Nat) (hn : n = n₁ + n₂) (p : (⟨1, ![n]⟩ : Shape).Idx) :
    concatFwd n₁ n₂ n hn (concatBwd n₁ n₂ n hn p) = p := by
  unfold concatBwd
  split
  · funext a; match a with | ⟨0, _⟩ => rfl
  · rename_i h
    funext a; match a with | ⟨0, _⟩ => exact Fin.ext (by show (p 0).val - n₁ + n₁ = (p 0).val; omega)

/-- The two position sets together are the positions of the concatenation. -/
def concatPos (n₁ n₂ n : Nat) (hn : n = n₁ + n₂) :
    (⟨1, ![n₁]⟩ : Shape).Idx ⊕ (⟨1, ![n₂]⟩ : Shape).Idx ≃ (⟨1, ![n]⟩ : Shape).Idx where
  toFun := concatFwd n₁ n₂ n hn
  invFun := concatBwd n₁ n₂ n hn
  left_inv := concatBwd_fwd n₁ n₂ n hn
  right_inv := concatFwd_bwd n₁ n₂ n hn

theorem concatPos_inl (n₁ n₂ n : Nat) (hn : n = n₁ + n₂) (j : Fin n₁) :
    concatPos n₁ n₂ n hn (Sum.inl (ix1 j)) = ix1 ⟨j.val, by omega⟩ := rfl

theorem concatPos_inr (n₁ n₂ n : Nat) (hn : n = n₁ + n₂) (j : Fin n₂) :
    concatPos n₁ n₂ n hn (Sum.inr (ix1 j)) = ix1 ⟨j.val + n₁, by omega⟩ := rfl

end Idealize.ShloMosaic.FlatScatter

end
-- ==== Proof.LibConcatRead.lean ====
/-
  Two lists laid end to end, read position by position.

  With `concatPos n₁ n₂ n` (the positions of the first list, then those of the second shifted by `n₁`, as the
  positions of the whole), a two-piece concatenation along the one axis of a flat array reads the first piece
  at `inl j` and the second at `inr j`; conversely the unit-stride slices `[0, n₁)` and `[n₁, n₁ + n₂)` of a
  flat array read it at `inl j` and at `inr j`. Also: a flat list broadcast to a one-wide column `[M, 1]`
  reads, in row `a`, its entry `a`.
-/
import proofs.«129985_j85117661872492_2_alg».proof.Proof.LibFlatScatter
import Idealize.ShloMosaic.Lib.Pipeline.Value

noncomputable section

namespace Idealize.ShloMosaic.FlatScatter

open Idealize.ShloMosaic Idealize.ShloMosaic.ValueIdx

variable {α : Type}

/-- A list as a one-wide column: row `a` holds entry `a`. -/
theorem column_apply {M : Nat}
    (h : (⟨1, ![M]⟩ : Shape).BroadcastsInDim (⟨2, ![M, 1]⟩ : Shape) (![0] : Fin 1 → Fin 2))
    (v : (⟨1, ![M]⟩ : Shape).Idx → α) (a : Fin M) :
    broadcastInDim (⟨2, ![M, 1]⟩ : Shape) (![0] : Fin 1 → Fin 2) h v (colIdx a) = v (ix1 a) := by
  refine broadcastInDim_apply _ h v _ (ix1 a) (fun a' => ?_)
  obtain rfl : a' = 0 := Subsingleton.elim _ _
  show a.val = if M = 1 then 0 else a.val
  split
  · omega
  · rfl

/-- A two-piece concatenation at a position of the first piece. -/
theorem concatenate_inl (n₁ n₂ n : Nat) (hn : n = n₁ + n₂)
    (h : Shape.Concatenates [(⟨1, ![n₁]⟩ : Shape), (⟨1, ![n₂]⟩ : Shape)] (⟨1, ![n]⟩ : Shape) 0)
    (a : (⟨1, ![n₁]⟩ : Shape).Idx → α) (b : (⟨1, ![n₂]⟩ : Shape).Idx → α) (j : (⟨1, ![n₁]⟩ : Shape).Idx) :
    concatenate (⟨1, ![n]⟩ : Shape) 0 [⟨(⟨1, ![n₁]⟩ : Shape), a⟩, ⟨(⟨1, ![n₂]⟩ : Shape), b⟩] h
      (concatPos n₁ n₂ n hn (Sum.inl j)) = a j :=
  concatenate_pair_apply_left 0 a b h _ rfl j (fun b' => by
    obtain rfl : b' = 0 := Subsingleton.elim _ _
    rfl)

/-- A two-piece concatenation at a position of the second piece. -/
theorem concatenate_inr (n₁ n₂ n : Nat) (hn : n = n₁ + n₂)
    (h : Shape.Concatenates [(⟨1, ![n₁]⟩ : Shape), (⟨1, ![n₂]⟩ : Shape)] (⟨1, ![n]⟩ : Shape) 0)
    (a : (⟨1, ![n₁]⟩ : Shape).Idx → α) (b : (⟨1, ![n₂]⟩ : Shape).Idx → α) (j : (⟨1, ![n₂]⟩ : Shape).Idx) :
    concatenate (⟨1, ![n]⟩ : Shape) 0 [⟨(⟨1, ![n₁]⟩ : Shape), a⟩, ⟨(⟨1, ![n₂]⟩ : Shape), b⟩] h
      (concatPos n₁ n₂ n hn (Sum.inr j)) = b j :=
  concatenate_pair_apply_right 0 a b h _ rfl rfl j
    (fun b' hb => absurd (Subsingleton.elim _ _) hb)
    (by show (j 0).val + n₁ = (j 0).val + n₁; rfl)

/-- The slice `[0, n₁)` of a flat array reads it at the first list's positions. -/
theorem slice_inl (n₁ n₂ n : Nat) (hn : n = n₁ + n₂)
    (h : (⟨1, ![n]⟩ : Shape).Slices ![0] (⟨1, ![n₁]⟩ : Shape))
    (x : (⟨1, ![n]⟩ : Shape).Idx → α) (j : (⟨1, ![n₁]⟩ : Shape).Idx) :
    extractStridedSlice (⟨1, ![n₁]⟩ : Shape) ![0] x h j = x (concatPos n₁ n₂ n hn (Sum.inl j)) :=
  extractStridedSlice_apply _ x h j _ (fun a => by
    obtain rfl : a = 0 := Subsingleton.elim _ _
    show (j 0).val = 0 + (j 0).val
    omega)

/-- The slice `[n₁, n₁ + n₂)` of a flat array reads it at the second list's positions. -/
theorem slice_inr (n₁ n₂ n : Nat) (hn : n = n₁ + n₂)
    (h : (⟨1, ![n]⟩ : Shape).Slices ![n₁] (⟨1, ![n₂]⟩ : Shape))
    (x : (⟨1, ![n]⟩ : Shape).Idx → α) (j : (⟨1, ![n₂]⟩ : Shape).Idx) :
    extractStridedSlice (⟨1, ![n₂]⟩ : Shape) ![n₁] x h j = x (concatPos n₁ n₂ n hn (Sum.inr j)) :=
  extractStridedSlice_apply _ x h j _ (fun a => by
    obtain rfl : a = 0 := Subsingleton.elim _ _
    show (j 0).val + n₁ = n₁ + (j 0).val
    omega)

end Idealize.ShloMosaic.FlatScatter

end
-- ==== Proof.Bridge.lean ====
/-
  The kernel's new traffic and the reference's are one function of the arguments, on the extended reals.

  Write `s j`, `d j` for the (wrapped) source and destination of edge `j`. Both programs read the traffic at
  an endpoint word by the same rule (signed, clamped into the node range), so the kernel's one gather over
  "sources then destinations", cut back in two, reads position `j` of the first half at `s j` and position `j` of
  the second half at `d j`: exactly the reference's two gathers. Reshaping to 50000 × 128 and back changes no
  element, and the body of the region is pointwise, so the kernel's per-edge transfer is the reference's
  `t j = |x(s j) − x(d j)| · c₀ · w j`, with the same literal `c₀` on both sides.

  An update lands on the node its endpoint word names (signed; dropped outside the node range), by the same
  rule in both programs. The kernel adds `−t` at the sources and `t` at the destinations with ONE accumulating
  scatter over the two lists laid end to end; the reference with two scatters, one after the other. At a node `i`
      x i + ∑_{positions landing on i} (−t ‖ t)  =  (x i + ∑_{s j = i} −t j) + ∑_{d j = i} t j,
  a regrouping of a finite sum, valid on the extended reals without any finiteness assumption.
-/
import proofs.«129985_j85117661872492_2_alg».proof.Proof.KernelValue
import proofs.«129985_j85117661872492_2_alg».proof.Proof.ReferenceValue
import proofs.«129985_j85117661872492_2_alg».proof.Proof.LibConcatRead
import Idealize.ShloMosaic.Lib.KernelVsHost

noncomputable section

namespace Cert.Bridge

open Idealize.ShloMosaic Idealize.ShloMosaic.ValueIdx Idealize.ShloMosaic.FlatScatter

/-! ## Endpoint words -/

/-- A negative endpoint counts from the end: the number of nodes is added to it. -/
def wrapWord (v : BitVec 32) : BitVec 32 :=
  Scalar.select (IntOp.cmpi CmpIPredicate.slt v 0#32) (IntOp.addi v 100000#32) v

/-- The node a gather reads for an endpoint word: the word as a signed integer, clamped into the node range. -/
def node (v : BitVec 32) : (⟨1, ![100000]⟩ : Shape).Idx :=
  ix1 ⟨min v.toInt.toNat (100000 - 1), by omega⟩

theorem twoLists : 12800000 = 6400000 + 6400000 := by norm_num

/-- Row `p` of the kernel's endpoint column is the wrapped endpoint at position `p`. -/
theorem kernel_word (e : (⟨Cert.KernelIdeal.S12800000, .i32⟩ : BufTy).Contents (Elt Ideal)) (p : Fin 12800000) :
    Cert.KernelIdeal.Flow.wrappedColumn (F := Ideal) e (colIdx p) = wrapWord (e (ix1 p)) :=
  (column_apply _ _ p).trans rfl

/-- Row `j` of a reference endpoint column is the wrapped endpoint of edge `j`. -/
theorem ref_word (e : (⟨Cert.ReferenceIdeal.S6400000, .i32⟩ : BufTy).Contents (Elt Ideal)) (j : Fin 6400000) :
    Cert.ReferenceIdeal.Flow.wrappedColumn (F := Ideal) e (colIdx j) = wrapWord (e (ix1 j)) :=
  (column_apply _ _ j).trans rfl

/-! ## The endpoint list -/

/-- Position `j` of the kernel's list is edge `j`'s source. -/
theorem endpoints_src (a0 : (⟨Cert.KernelIdeal.S2x6400000, .i32⟩ : BufTy).Contents (Elt Ideal)) (j : Fin 6400000) :
    Cert.KernelIdeal.Flow.endpoints (F := Ideal) a0 (ix1 ⟨j.val, by omega⟩)
      = Cert.ReferenceIdeal.Flow.sources (F := Ideal) a0 (ix1 j) :=
  concatenate_inl 6400000 6400000 12800000 twoLists _ _ _ (ix1 j)

/-- Position `6400000 + j` of the kernel's list is edge `j`'s destination. -/
theorem endpoints_dst (a0 : (⟨Cert.KernelIdeal.S2x6400000, .i32⟩ : BufTy).Contents (Elt Ideal)) (j : Fin 6400000) :
    Cert.KernelIdeal.Flow.endpoints (F := Ideal) a0 (ix1 ⟨j.val + 6400000, by omega⟩)
      = Cert.ReferenceIdeal.Flow.dests (F := Ideal) a0 (ix1 j) :=
  concatenate_inr 6400000 6400000 12800000 twoLists _ _ _ (ix1 j)

/-! ## The gathers -/

/-- The kernel's gather at position `p`: the traffic at the node of the wrapped endpoint there. -/
theorem kernel_traffic (x : (⟨Cert.KernelIdeal.S100000, .f32⟩ : BufTy).Contents (Elt Ideal))
    (e : (⟨Cert.KernelIdeal.S12800000, .i32⟩ : BufTy).Contents (Elt Ideal)) (p : Fin 12800000) :
    Cert.KernelIdeal.Flow.gathered (F := Ideal) x e (ix1 p) = x (node (wrapWord (e (ix1 p)))) :=
  (flatGather_apply (N := 100000) (M := 12800000) (by norm_num)
      Cert.KernelIdeal.Gen.gather_S100000_S12800000x1_S12800000_n_0_n_n_0_1_1_wf x _ p).trans
    (congrArg (fun v => x (node v)) (kernel_word e p))

/-- A reference gather at edge `j`: the traffic at the node of the wrapped endpoint of edge `j`. -/
theorem ref_traffic (x : (⟨Cert.ReferenceIdeal.S100000, .f32⟩ : BufTy).Contents (Elt Ideal))
    (e : (⟨Cert.ReferenceIdeal.S6400000, .i32⟩ : BufTy).Contents (Elt Ideal)) (j : Fin 6400000) :
    Cert.ReferenceIdeal.Flow.trafficAt (F := Ideal) x e (ix1 j) = x (node (wrapWord (e (ix1 j)))) :=
  (flatGather_apply (N := 100000) (M := 6400000) (by norm_num)
      Cert.ReferenceIdeal.Gen.gather_S100000_S6400000x1_S6400000_n_0_n_n_0_1_1_wf x _ j).trans
    (congrArg (fun v => x (node v)) (ref_word e j))

/-- The first half of the kernel's gather is the reference's gather at the sources. -/
theorem half_src (a0 : (⟨Cert.KernelIdeal.S2x6400000, .i32⟩ : BufTy).Contents (Elt Ideal))
    (x : (⟨Cert.KernelIdeal.S100000, .f32⟩ : BufTy).Contents (Elt Ideal)) (j : Fin 6400000) :
    extractStridedSlice Cert.KernelIdeal.S6400000 ![0]
        (Cert.KernelIdeal.Flow.gathered (F := Ideal) x (Cert.KernelIdeal.Flow.endpoints a0))
        Cert.KernelIdeal.Gen.slices_S12800000_S6400000_0 (ix1 j)
      = Cert.ReferenceIdeal.Flow.trafficAt (F := Ideal) x (Cert.ReferenceIdeal.Flow.sources a0) (ix1 j) :=
  (slice_inl 6400000 6400000 12800000 twoLists _ _ (ix1 j)).trans
    ((kernel_traffic x (Cert.KernelIdeal.Flow.endpoints a0) ⟨j.val, by omega⟩).trans
      ((congrArg (fun v => x (node (wrapWord v))) (endpoints_src a0 j)).trans
        (ref_traffic x (Cert.ReferenceIdeal.Flow.sources a0) j).symm))

/-- The second half of the kernel's gather is the reference's gather at the destinations. -/
theorem half_dst (a0 : (⟨Cert.KernelIdeal.S2x6400000, .i32⟩ : BufTy).Contents (Elt Ideal))
    (x : (⟨Cert.KernelIdeal.S100000, .f32⟩ : BufTy).Contents (Elt Ideal)) (j : Fin 6400000) :
    extractStridedSlice Cert.KernelIdeal.S6400000 ![6400000]
        (Cert.KernelIdeal.Flow.gathered (F := Ideal) x (Cert.KernelIdeal.Flow.endpoints a0))
        Cert.KernelIdeal.Gen.slices_S12800000_S6400000_6400000 (ix1 j)
      = Cert.ReferenceIdeal.Flow.trafficAt (F := Ideal) x (Cert.ReferenceIdeal.Flow.dests a0) (ix1 j) :=
  (slice_inr 6400000 6400000 12800000 twoLists _ _ (ix1 j)).trans
    ((kernel_traffic x (Cert.KernelIdeal.Flow.endpoints a0) ⟨j.val + 6400000, by omega⟩).trans
      ((congrArg (fun v => x (node (wrapWord v))) (endpoints_dst a0 j)).trans
        (ref_traffic x (Cert.ReferenceIdeal.Flow.dests a0) j).symm))

/-! ## The per-edge transfer -/

/-- The transfer of one edge from the traffic at its two endpoints and its weight: `|s − d| · c₀ · wt`. -/
def edgeTransfer (s d wt : Ideal .f32) : Ideal .f32 :=
  FloatOps.mulf (F := Ideal) (φ := .f32) (FloatOps.mulf (FloatOps.absf (FloatOps.subf s d)) (Scalar.ofBits .f32 0x3DCCCCCD#32)) wt

/-- Reshaping three flat lists to the 50000 × 128 grid, forming the transfer there and reshaping back gives
    the transfer of the flat lists, edge by edge. -/
theorem transfer_flat (A B C : FVec Ideal Cert.KernelIdeal.S6400000 .f32)
    (h : Cert.KernelIdeal.S6400000.ShapeCasts Cert.KernelIdeal.S50000x128)
    (h' : Cert.KernelIdeal.S50000x128.ShapeCasts Cert.KernelIdeal.S6400000) :
    shapeCast Cert.KernelIdeal.S6400000
        (Cert.KernelIdeal.TransferArray.transfer2d (F := Ideal)
          (shapeCast Cert.KernelIdeal.S50000x128 A h) (shapeCast Cert.KernelIdeal.S50000x128 B h)
          (shapeCast Cert.KernelIdeal.S50000x128 C h)) h'
      = fun j => edgeTransfer (A j) (B j) (C j) := by
  funext j
  have eA := congrFun (shapeCast_shapeCast A h h') j
  have eB := congrFun (shapeCast_shapeCast B h h') j
  have eC := congrFun (shapeCast_shapeCast C h h') j
  show edgeTransfer
      (shapeCast Cert.KernelIdeal.S6400000 (shapeCast Cert.KernelIdeal.S50000x128 A h) h' j)
      (shapeCast Cert.KernelIdeal.S6400000 (shapeCast Cert.KernelIdeal.S50000x128 B h) h' j)
      (shapeCast Cert.KernelIdeal.S6400000 (shapeCast Cert.KernelIdeal.S50000x128 C h) h' j) = _
  rw [eA, eB, eC]

/-- The reference's transfer of one edge: `|x(s j) − x(d j)| · c₀ · w j`, the host's literal read as the scalar
    with the same bits and the host's absolute value as the extended reals'. -/
theorem ref_transfer_apply (a0 : (⟨Cert.ReferenceIdeal.S2x6400000, .i32⟩ : BufTy).Contents (Elt Ideal))
    (w : (⟨Cert.ReferenceIdeal.S6400000, .f32⟩ : BufTy).Contents (Elt Ideal))
    (x : (⟨Cert.ReferenceIdeal.S100000, .f32⟩ : BufTy).Contents (Elt Ideal)) (j : Cert.ReferenceIdeal.S6400000.Idx) :
    Cert.ReferenceIdeal.Flow.transfer (F := Ideal) a0 w x j
      = edgeTransfer
          (Cert.ReferenceIdeal.Flow.trafficAt (F := Ideal) x (Cert.ReferenceIdeal.Flow.sources a0) j)
          (Cert.ReferenceIdeal.Flow.trafficAt (F := Ideal) x (Cert.ReferenceIdeal.Flow.dests a0) j)
          (w j) := by
  unfold Cert.ReferenceIdeal.Flow.transfer
  rw [broadcastInDim_constant]
  rfl

/-- The kernel's per-edge transfer, as a flat list, is the reference's. -/
theorem transfer_eq (a0 : (⟨Cert.KernelIdeal.S2x6400000, .i32⟩ : BufTy).Contents (Elt Ideal))
    (w : (⟨Cert.KernelIdeal.S6400000, .f32⟩ : BufTy).Contents (Elt Ideal))
    (x : (⟨Cert.KernelIdeal.S100000, .f32⟩ : BufTy).Contents (Elt Ideal)) :
    shapeCast Cert.KernelIdeal.S6400000
        (Cert.KernelIdeal.TransferArray.transfer2d (F := Ideal)
          (Cert.KernelIdeal.Flow.srcTraffic2d x (Cert.KernelIdeal.Flow.endpoints a0))
          (Cert.KernelIdeal.Flow.dstTraffic2d x (Cert.KernelIdeal.Flow.endpoints a0))
          (Cert.KernelIdeal.Flow.weights2d w))
        Cert.KernelIdeal.Gen.shapeCasts_S50000x128_S6400000
      = Cert.ReferenceIdeal.Flow.transfer (F := Ideal) a0 w x := by
  have hS : extractStridedSlice Cert.KernelIdeal.S6400000 ![0]
        (Cert.KernelIdeal.Flow.gathered (F := Ideal) x (Cert.KernelIdeal.Flow.endpoints a0))
        Cert.KernelIdeal.Gen.slices_S12800000_S6400000_0
      = Cert.ReferenceIdeal.Flow.trafficAt (F := Ideal) x (Cert.ReferenceIdeal.Flow.sources a0) :=
    funext fun j => by
      obtain ⟨j', rfl⟩ : ∃ j' : Fin 6400000, j = ix1 j' := ⟨j 0, eq_ix1 j⟩
      exact half_src a0 x j'
  have hD : extractStridedSlice Cert.KernelIdeal.S6400000 ![6400000]
        (Cert.KernelIdeal.Flow.gathered (F := Ideal) x (Cert.KernelIdeal.Flow.endpoints a0))
        Cert.KernelIdeal.Gen.slices_S12800000_S6400000_6400000
      = Cert.ReferenceIdeal.Flow.trafficAt (F := Ideal) x (Cert.ReferenceIdeal.Flow.dests a0) :=
    funext fun j => by
      obtain ⟨j', rfl⟩ : ∃ j' : Fin 6400000, j = ix1 j' := ⟨j 0, eq_ix1 j⟩
      exact half_dst a0 x j'
  have hR : Cert.ReferenceIdeal.Flow.transfer (F := Ideal) a0 w x
      = fun j => edgeTransfer
          (Cert.ReferenceIdeal.Flow.trafficAt (F := Ideal) x (Cert.ReferenceIdeal.Flow.sources a0) j)
          (Cert.ReferenceIdeal.Flow.trafficAt (F := Ideal) x (Cert.ReferenceIdeal.Flow.dests a0) j)
          (w j) :=
    funext fun j => ref_transfer_apply a0 w x j
  rw [hR]
  unfold Cert.KernelIdeal.Flow.srcTraffic2d Cert.KernelIdeal.Flow.dstTraffic2d Cert.KernelIdeal.Flow.weights2d
  rw [hS, hD]
  generalize Cert.ReferenceIdeal.Flow.trafficAt (F := Ideal) x (Cert.ReferenceIdeal.Flow.sources a0) = A
  generalize Cert.ReferenceIdeal.Flow.trafficAt (F := Ideal) x (Cert.ReferenceIdeal.Flow.dests a0) = B
  exact transfer_flat A B w _ _

/-! ## Where the updates land -/

/-- In the kernel's scatter the update at position `p` lands on the node its wrapped endpoint names. -/
theorem kernel_lands (e : (⟨Cert.KernelIdeal.S12800000, .i32⟩ : BufTy).Contents (Elt Ideal)) (p : Fin 12800000) :
    Cert.KernelIdeal.scatter_S100000_S12800000x1_S12800000_n_0_0_1.resultIdx? (ix1 p)
        (Cert.KernelIdeal.Flow.wrappedColumn (F := Ideal) e)
      = land 100000 (wrapWord (e (ix1 p))).toInt :=
  (flatScatter_resultIdx? (N := 100000) (M := 12800000)
      Cert.KernelIdeal.Gen.scatter_S100000_S12800000x1_S12800000_n_0_0_1_wf _ p).trans
    (congrArg (fun v : BitVec 32 => land 100000 v.toInt) (kernel_word e p))

/-- In a reference scatter the update of edge `j` lands on the node its wrapped endpoint names. -/
theorem ref_lands (e : (⟨Cert.ReferenceIdeal.S6400000, .i32⟩ : BufTy).Contents (Elt Ideal)) (j : Fin 6400000) :
    Cert.ReferenceIdeal.scatter_S100000_S6400000x1_S6400000_n_0_0_1.resultIdx? (ix1 j)
        (Cert.ReferenceIdeal.Flow.wrappedColumn (F := Ideal) e)
      = land 100000 (wrapWord (e (ix1 j))).toInt :=
  (flatScatter_resultIdx? (N := 100000) (M := 6400000)
      Cert.ReferenceIdeal.Gen.scatter_S100000_S6400000x1_S6400000_n_0_0_1_wf _ j).trans
    (congrArg (fun v : BitVec 32 => land 100000 v.toInt) (ref_word e j))

/-! ## The new traffic -/

/-- The kernel's new traffic is the reference's. -/
theorem new_eq (a0 : (⟨Cert.KernelIdeal.S2x6400000, .i32⟩ : BufTy).Contents (Elt Ideal))
    (w : (⟨Cert.KernelIdeal.S6400000, .f32⟩ : BufTy).Contents (Elt Ideal))
    (x : (⟨Cert.KernelIdeal.S100000, .f32⟩ : BufTy).Contents (Elt Ideal)) :
    Cert.KernelIdeal.Flow.newTraffic (F := Ideal) a0 w x = Cert.ReferenceIdeal.Flow.newTraffic (F := Ideal) a0 w x := by
  unfold Cert.KernelIdeal.Flow.newTraffic Cert.KernelIdeal.Flow.newOf Cert.ReferenceIdeal.Flow.newTraffic
  rw [transfer_eq a0 w x]
  show Ideal.hostScatterAdd Cert.KernelIdeal.scatter_S100000_S12800000x1_S12800000_n_0_0_1 x
      (Cert.KernelIdeal.Flow.wrappedColumn (F := Ideal) (Cert.KernelIdeal.Flow.endpoints a0))
      (concatenate Cert.KernelIdeal.S12800000 0
        [⟨Cert.KernelIdeal.S6400000, Host.negf (F := Ideal) (φ := .f32) (Cert.ReferenceIdeal.Flow.transfer (F := Ideal) a0 w x)⟩,
         ⟨Cert.KernelIdeal.S6400000, Cert.ReferenceIdeal.Flow.transfer (F := Ideal) a0 w x⟩]
        Cert.KernelIdeal.Gen.concatenates_S6400000_S6400000_S12800000_d0)
    = Ideal.hostScatterAdd Cert.ReferenceIdeal.scatter_S100000_S6400000x1_S6400000_n_0_0_1
        (Ideal.hostScatterAdd Cert.ReferenceIdeal.scatter_S100000_S6400000x1_S6400000_n_0_0_1 x
          (Cert.ReferenceIdeal.Flow.wrappedColumn (F := Ideal) (Cert.ReferenceIdeal.Flow.sources a0))
          (Host.negf (F := Ideal) (φ := .f32) (Cert.ReferenceIdeal.Flow.transfer (F := Ideal) a0 w x)))
        (Cert.ReferenceIdeal.Flow.wrappedColumn (F := Ideal) (Cert.ReferenceIdeal.Flow.dests a0))
        (Cert.ReferenceIdeal.Flow.transfer (F := Ideal) a0 w x)
  refine hostScatterAdd_union
    Cert.ReferenceIdeal.scatter_S100000_S6400000x1_S6400000_n_0_0_1
    Cert.ReferenceIdeal.scatter_S100000_S6400000x1_S6400000_n_0_0_1
    Cert.KernelIdeal.scatter_S100000_S12800000x1_S12800000_n_0_0_1
    x
    (Cert.ReferenceIdeal.Flow.wrappedColumn (F := Ideal) (Cert.ReferenceIdeal.Flow.sources a0))
    (Host.negf (F := Ideal) (φ := .f32) (Cert.ReferenceIdeal.Flow.transfer (F := Ideal) a0 w x))
    (Cert.ReferenceIdeal.Flow.wrappedColumn (F := Ideal) (Cert.ReferenceIdeal.Flow.dests a0))
    (Cert.ReferenceIdeal.Flow.transfer (F := Ideal) a0 w x)
    (Cert.KernelIdeal.Flow.wrappedColumn (F := Ideal) (Cert.KernelIdeal.Flow.endpoints a0))
    (concatenate Cert.KernelIdeal.S12800000 0
        [⟨Cert.KernelIdeal.S6400000, Host.negf (F := Ideal) (φ := .f32) (Cert.ReferenceIdeal.Flow.transfer (F := Ideal) a0 w x)⟩,
         ⟨Cert.KernelIdeal.S6400000, Cert.ReferenceIdeal.Flow.transfer (F := Ideal) a0 w x⟩]
        Cert.KernelIdeal.Gen.concatenates_S6400000_S6400000_S12800000_d0)
    (concatPos 6400000 6400000 12800000 twoLists) ?_ ?_ ?_ ?_
  · intro j
    obtain ⟨j', rfl⟩ : ∃ j' : Fin 6400000, j = ix1 j' := ⟨j 0, eq_ix1 j⟩
    exact (kernel_lands (Cert.KernelIdeal.Flow.endpoints a0) ⟨j'.val, by omega⟩).trans
      ((congrArg (fun v => land 100000 (wrapWord v).toInt) (endpoints_src a0 j')).trans
        (ref_lands (Cert.ReferenceIdeal.Flow.sources a0) j').symm)
  · intro j
    obtain ⟨j', rfl⟩ : ∃ j' : Fin 6400000, j = ix1 j' := ⟨j 0, eq_ix1 j⟩
    exact (kernel_lands (Cert.KernelIdeal.Flow.endpoints a0) ⟨j'.val + 6400000, by omega⟩).trans
      ((congrArg (fun v => land 100000 (wrapWord v).toInt) (endpoints_dst a0 j')).trans
        (ref_lands (Cert.ReferenceIdeal.Flow.dests a0) j').symm)
  · intro j
    exact concatenate_inl 6400000 6400000 12800000 twoLists _ _ _ j
  · intro j
    exact concatenate_inr 6400000 6400000 12800000 twoLists _ _ _ j

/-- The two totals are the same function of the yield rates, a traffic array and the costs. -/
theorem total_eq (y n k : (⟨Cert.KernelIdeal.S100000, .f32⟩ : BufTy).Contents (Elt Ideal)) :
    Cert.KernelIdeal.Flow.totalOf (F := Ideal) y n k = Cert.ReferenceIdeal.Flow.totalOf (F := Ideal) y n k := rfl

end Cert.Bridge

end
-- ==== Proof.lean ====
/-
  Traffic redistribution over the edges of a graph: 100000 nodes, 6400000 edges.

  For every edge `j` with (wrapped) source `s j` and destination `d j`, the transfer is
      t j = |x(s j) − x(d j)| · c₀ · w j,
  `x` the node traffic, `w` the edge weights, `c₀` the float literal written in both sources. The new traffic
  subtracts `t j` at `s j` and adds it at `d j`, for all edges; the second result is the sum over the nodes of
  `yield · new_traffic − cost`.

  The reference does this with two gathers and two accumulating scatters, one after the other. The kernel's
  program lays sources and destinations end to end, uses ONE gather and ONE accumulating scatter over the
  double-length lists, and computes `t` blockwise in a region of ten grid points (5000 × 128 each). On the
  extended reals the two new-traffic arrays are equal entry by entry: both gathers read the same nodes, the
  region is pointwise, and at every node the one scatter's sum over both lists is the two scatters' sums
  regrouped (addition of extended reals is associative and commutative; no finiteness is used, so the
  precondition is never opened). The totals are then the same function of equal arrays.

  Frames: the two kernel programs' are the generated frame certificates; the reference's is its generated run
  with the results dropped. The idealization rewrote nothing, so `preserves` is `True`.
-/
import proofs.«129985_j85117661872492_2_alg».proof.Defs
import proofs.«129985_j85117661872492_2_alg».proof.Proof.Gen.Kernel
import proofs.«129985_j85117661872492_2_alg».proof.Proof.Gen.Kernel.Skeleton
import proofs.«129985_j85117661872492_2_alg».proof.Proof.Gen.Kernel.Launch
import proofs.«129985_j85117661872492_2_alg».proof.Proof.Gen.Kernel.Points
import proofs.«129985_j85117661872492_2_alg».proof.Proof.Gen.Kernel.Frame
import proofs.«129985_j85117661872492_2_alg».proof.Proof.Gen.KernelIdeal
import proofs.«129985_j85117661872492_2_alg».proof.Proof.Gen.KernelIdeal.Skeleton
import proofs.«129985_j85117661872492_2_alg».proof.Proof.Gen.KernelIdeal.Launch
import proofs.«129985_j85117661872492_2_alg».proof.Proof.Gen.KernelIdeal.Points
import proofs.«129985_j85117661872492_2_alg».proof.Proof.Gen.KernelIdeal.Frame
import proofs.«129985_j85117661872492_2_alg».proof.Proof.Gen.ReferenceIdeal
import proofs.«129985_j85117661872492_2_alg».proof.Proof.Gen.ReferenceIdeal.Run
import proofs.«129985_j85117661872492_2_alg».proof.Proof.Gen.Pre_finite_inputs
import proofs.«129985_j85117661872492_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- From memories agreeing on the arguments both idealized programs run, and end with the same new traffic
    and the same total: the kernel's two result terms, which the reference's equal. -/
theorem algebraic : Cert.algebraic_KernelIdeal_ReferenceIdeal := by
  intro m ρ m' ρ' _ hagree
  refine ⟨fun c => Cert.KernelIdeal.Flow.newTraffic (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => Cert.KernelIdeal.Flow.totalOf (F := Ideal)
      (m ((c.tc : Thread Cert.KernelIdeal.nD Cert.KernelIdeal.τ).loc Cert.KernelIdeal.main_arg2))
      (Cert.KernelIdeal.Flow.newTraffic (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)),
    Cert.KernelIdeal.Flow.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Flow.res_new m' c, (hagree c).1, (hagree c).2.1, (hagree c).2.2.2.1]
    exact (Cert.Bridge.new_eq _ _ _).symm
  · rw [Cert.ReferenceIdeal.Flow.res_total m' c, (hagree c).1, (hagree c).2.1, (hagree c).2.2.1, (hagree c).2.2.2.1,
      (hagree c).2.2.2.2, ← Cert.Bridge.new_eq]
    exact (Cert.Bridge.total_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
